-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x110x512 : Shape := ⟨3, ![512, 110, 512]⟩
abbrev S512 : Shape := ⟨1, ![512]⟩
abbrev S1 : Shape := ⟨1, ![1]⟩
abbrev S512x512 : Shape := ⟨2, ![512, 512]⟩
abbrev S_ : Shape := ⟨0, ![]⟩

class Facts : Prop where
  bcast_S_S512x110x512 : S_.BroadcastsInDim S512x110x512 (![] : Fin 0 → Fin S512x110x512.rank)
  reducesTo_S512x110x512_S_d0_1_2 : S512x110x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S512x110x512 .f32) (main_arg1 : IVec S512 32) (main_arg2 : IVec S1 32) (main_arg3 : FVec F S512x512 .f32) : IVec S_ 1 :=
  let main_v0 : FVec F S512x110x512 .f32 := Host.absf main_arg0
  let main_cst : FVec F S_ .f32 := constant S_ .f32 0x7F800000#32
  let main_v1 : FVec F S512x110x512 .f32 := broadcastInDim S512x110x512 ![] bcast_S_S512x110x512 main_cst
  let main_v2 : IVec S512x110x512 1 := cmpf .olt main_v0 main_v1
  let main_c : IVec S_ 1 := constantI S_ 1 1#1
  let main_v3 : IVec S_ 1 := (fun x v => Host.reduce IntOp.andi x v reducesTo_S512x110x512_S_d0_1_2 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S512x110x512 : Shape := ⟨3, ![512, 110, 512]⟩
abbrev S512 : Shape := ⟨1, ![512]⟩
abbrev S1 : Shape := ⟨1, ![1]⟩
abbrev S512x512 : Shape := ⟨2, ![512, 512]⟩
abbrev S512x1 : Shape := ⟨2, ![512, 1]⟩
abbrev S512x110x110 : Shape := ⟨3, ![512, 110, 110]⟩
abbrev S16x110x512 : Shape := ⟨3, ![16, 110, 512]⟩
abbrev S16x1 : Shape := ⟨2, ![16, 1]⟩
abbrev S16x110x110 : Shape := ⟨3, ![16, 110, 110]⟩
abbrev S1760x512 : Shape := ⟨2, ![1760, 512]⟩
abbrev S16x1x1 : Shape := ⟨3, ![16, 1, 1]⟩
abbrev S16x110 : Shape := ⟨2, ![16, 110]⟩
abbrev S16x110x1 : Shape := ⟨3, ![16, 110, 1]⟩

abbrev nBuf : Space → Nat
  | .hbm => 6
  | .vmem => 7
  | .smem => 0
  | _ => 0

abbrev bufTy : (tb : Table) → Fin (tcTables nBuf tb) → BufTy
  | .hbm, ⟨0, _⟩ => ⟨S512x110x512, .f32⟩
  | .hbm, ⟨1, _⟩ => ⟨S512, .i32⟩
  | .hbm, ⟨2, _⟩ => ⟨S1, .i32⟩
  | .hbm, ⟨3, _⟩ => ⟨S512x512, .f32⟩
  | .hbm, ⟨4, _⟩ => ⟨S512x1, .i32⟩
  | .hbm, ⟨5, _⟩ => ⟨S512x110x110, .f32⟩
  | .local _ .vmem, ⟨0, _⟩ => ⟨S16x110x512, .f32⟩
  | .local _ .vmem, ⟨1, _⟩ => ⟨S16x110x512, .f32⟩
  | .local _ .vmem, ⟨2, _⟩ => ⟨S512x512, .f32⟩
  | .local _ .vmem, ⟨3, _⟩ => ⟨S16x1, .i32⟩
  | .local _ .vmem, ⟨4, _⟩ => ⟨S16x1, .i32⟩
  | .local _ .vmem, ⟨5, _⟩ => ⟨S16x110x110, .f32⟩
  | .local _ .vmem, ⟨6, _⟩ => ⟨S16x110x110, .f32⟩
  | _, _ => ⟨S512x110x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x110x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x110x110 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S512x1 : S512.ShapeCasts S512x1
  inb_S16x110x512_S16x110x512_0_0_0 : ∀ a, (![0, 0, 0] : Fin 3 → Nat) a + S16x110x512.size a ≤ S16x110x512.size a
  h_S16x110x512 : 0 < S16x110x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S16x110x512_S1760x512 : S16x110x512.ShapeCasts S1760x512
  shapeCasts_S1760x512_S16x110x512 : S1760x512.ShapeCasts S16x110x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  iota_S16x110x110_d1_w32 : S16x110x110.Iotas .tc 32 [1]
  iota_S16x110x110_d2_w32 : S16x110x110.Iotas .tc 32 [2]
  broadcasts_S16x1x1_S16x110x110 : S16x1x1.Broadcasts S16x110x110
  reduces_S16x110x110_S16x110 : S16x110x110.Reduces [2] S16x110
  shapeCasts_S16x110_S16x110x1 : S16x110.ShapeCasts S16x110x1
  broadcasts_S16x110x1_S16x110x110 : S16x110x1.Broadcasts S16x110x110
  inb_S16x110x110_S16x110x110_0_0_0 : ∀ a, (![0, 0, 0] : Fin 3 → Nat) a + S16x110x110.size a ≤ S16x110x110.size a
  h_S16x110x110 : 0 < S16x110x110.numel
  dot_S1760x512_S512x512_S1760x512_1_1_0_0_n_n_wf : DotDims.WF S1760x512 S512x512 S1760x512 [1] [1] [0] [0] [] []
  dot_S16x110x512_S16x110x512_S16x110x110_2_2_1_1_0_0_wf : DotDims.WF S16x110x512 S16x110x512 S16x110x110 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x110x512.size a ≤ S512x110x512.size a
  hwx0_0 : ∀ i : grid0.Coords, EltTy.bits .f32 = 32 ∨ (Rect.block (s := S512x110x512) S16x110x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .i32 = 32 ∨ (Rect.block (s := S512x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x110x110.size a ≤ S512x110x110.size a
  hwx0_3 : ∀ i : grid0.Coords, EltTy.bits .f32 = 32 ∨ (Rect.block (s := S512x110x110) S16x110x110.size (cc0_transform_3 i) (hinb0_3 i)).WholeWords (EltTy.packing .f32)

variable [Facts₀]

def dot_S1760x512_S512x512_S1760x512_1_1_0_0_n_n : DotDims S1760x512 S512x512 S1760x512 where
  lhsContracting := [1]
  rhsContracting := [1]
  lhsNonContracting := [0]
  rhsNonContracting := [0]
  lhsBatch := []
  rhsBatch := []
  wf := dot_S1760x512_S512x512_S1760x512_1_1_0_0_n_n_wf
def dot_S16x110x512_S16x110x512_S16x110x110_2_2_1_1_0_0 : DotDims S16x110x512 S16x110x512 S16x110x110 where
  lhsContracting := [2]
  rhsContracting := [2]
  lhsNonContracting := [1]
  rhsNonContracting := [1]
  lhsBatch := [0]
  rhsBatch := [0]
  wf := dot_S16x110x512_S16x110x512_S16x110x110_2_2_1_1_0_0_wf

abbrev win0_0 : Pipeline.Window sig grid0 :=
  Pipeline.Window.ofSpec (Memref.whole main_arg0) S16x110x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x110x110.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x110x512 : Shape := ⟨3, ![512, 110, 512]⟩
abbrev S512 : Shape := ⟨1, ![512]⟩
abbrev S1 : Shape := ⟨1, ![1]⟩
abbrev S512x512 : Shape := ⟨2, ![512, 512]⟩
abbrev S512x110x110 : Shape := ⟨3, ![512, 110, 110]⟩
abbrev S512x1x1 : Shape := ⟨3, ![512, 1, 1]⟩
abbrev S110 : Shape := ⟨1, ![110]⟩
abbrev S1x110x1 : Shape := ⟨3, ![1, 110, 1]⟩
abbrev S1x1x110 : Shape := ⟨3, ![1, 1, 110]⟩
abbrev S_ : Shape := ⟨0, ![]⟩
abbrev S1x110x110 : Shape := ⟨3, ![1, 110, 110]⟩
abbrev S512x110x1 : Shape := ⟨3, ![512, 110, 1]⟩
abbrev S512x110 : Shape := ⟨2, ![512, 110]⟩

abbrev nBuf : Space → Nat
  | .hbm => 58
  | .vmem => 0
  | .smem => 0
  | _ => 0

abbrev bufTy : (tb : Table) → Fin (tcTables nBuf tb) → BufTy
  | .hbm, ⟨0, _⟩ => ⟨S512x110x512, .f32⟩
  | .hbm, ⟨1, _⟩ => ⟨S512, .i32⟩
  | .hbm, ⟨2, _⟩ => ⟨S1, .i32⟩
  | .hbm, ⟨3, _⟩ => ⟨S512x512, .f32⟩
  | .hbm, ⟨4, _⟩ => ⟨S512x110x512, .f32⟩
  | .hbm, ⟨5, _⟩ => ⟨S512x110x110, .f32⟩
  | .hbm, ⟨6, _⟩ => ⟨S512x1x1, .i32⟩
  | .hbm, ⟨7, _⟩ => ⟨S110, .i32⟩
  | .hbm, ⟨8, _⟩ => ⟨S1x110x1, .i32⟩
  | .hbm, ⟨9, _⟩ => ⟨S110, .i32⟩
  | .hbm, ⟨10, _⟩ => ⟨S1x1x110, .i32⟩
  | .hbm, ⟨11, _⟩ => ⟨S_, .i32⟩
  | .hbm, ⟨12, _⟩ => ⟨S1x110x1, .i32⟩
  | .hbm, ⟨13, _⟩ => ⟨S1x110x1, .i32⟩
  | .hbm, ⟨14, _⟩ => ⟨S1x110x110, .i32⟩
  | .hbm, ⟨15, _⟩ => ⟨S1x110x110, .i32⟩
  | .hbm, ⟨16, _⟩ => ⟨S1x110x110, .i1⟩
  | .hbm, ⟨17, _⟩ => ⟨S_, .i32⟩
  | .hbm, ⟨18, _⟩ => ⟨S1x110x1, .i32⟩
  | .hbm, ⟨19, _⟩ => ⟨S1x110x1, .i32⟩
  | .hbm, ⟨20, _⟩ => ⟨S_, .i32⟩
  | .hbm, ⟨21, _⟩ => ⟨S512x1x1, .i32⟩
  | .hbm, ⟨22, _⟩ => ⟨S512x1x1, .i32⟩
  | .hbm, ⟨23, _⟩ => ⟨S512x110x1, .i32⟩
  | .hbm, ⟨24, _⟩ => ⟨S512x110x1, .i32⟩
  | .hbm, ⟨25, _⟩ => ⟨S512x110x1, .i32⟩
  | .hbm, ⟨26, _⟩ => ⟨S512x110x110, .i32⟩
  | .hbm, ⟨27, _⟩ => ⟨S512x110x110, .i32⟩
  | .hbm, ⟨28, _⟩ => ⟨S512x110x110, .i1⟩
  | .hbm, ⟨29, _⟩ => ⟨S512x110x110, .i1⟩
  | .hbm, ⟨30, _⟩ => ⟨S512x110x110, .i1⟩
  | .hbm, ⟨31, _⟩ => ⟨S512x110x1, .i32⟩
  | .hbm, ⟨32, _⟩ => ⟨S512x110x1, .i32⟩
  | .hbm, ⟨33, _⟩ => ⟨S512x110x1, .i1⟩
  | .hbm, ⟨34, _⟩ => ⟨S512x110x110, .i1⟩
  | .hbm, ⟨35, _⟩ => ⟨S512x110x110, .i1⟩
  | .hbm, ⟨36, _⟩ => ⟨S_, .f32⟩
  | .hbm, ⟨37, _⟩ => ⟨S_, .f32⟩
  | .hbm, ⟨38, _⟩ => ⟨S512x110x110, .f32⟩
  | .hbm, ⟨39, _⟩ => ⟨S512x110x110, .f32⟩
  | .hbm, ⟨40, _⟩ => ⟨S_, .f32⟩
  | .hbm, ⟨41, _⟩ => ⟨S512x110, .f32⟩
  | .hbm, ⟨42, _⟩ => ⟨S_, .f32⟩
  | .hbm, ⟨43, _⟩ => ⟨S512x110, .f32⟩
  | .hbm, ⟨44, _⟩ => ⟨S512x110, .f32⟩
  | .hbm, ⟨45, _⟩ => ⟨S512x110x1, .f32⟩
  | .hbm, ⟨46, _⟩ => ⟨S512x110x110, .f32⟩
  | .hbm, ⟨47, _⟩ => ⟨S512x110x110, .f32⟩
  | .hbm, ⟨48, _⟩ => ⟨S512x110x110, .f32⟩
  | .hbm, ⟨49, _⟩ => ⟨S_, .f32⟩
  | .hbm, ⟨50, _⟩ => ⟨S512x110, .f32⟩
  | .hbm, ⟨51, _⟩ => ⟨S512x110x1, .f32⟩
  | .hbm, ⟨52, _⟩ => ⟨S512x110x110, .f32⟩
  | .hbm, ⟨53, _⟩ => ⟨S512x110x110, .f32⟩
  | .hbm, ⟨54, _⟩ => ⟨S_, .f32⟩
  | .hbm, ⟨55, _⟩ => ⟨S_, .f32⟩
  | .hbm, ⟨56, _⟩ => ⟨S512x110x110, .f32⟩
  | .hbm, ⟨57, _⟩ => ⟨S512x110x110, .f32⟩
  | _, _ => ⟨S512x110x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S512_S512x1x1_0 : S512.BroadcastsInDim S512x1x1 (![0] : Fin 1 → Fin S512x1x1.rank)
  bcast_S110_S1x110x1_1 : S110.BroadcastsInDim S1x110x1 (![1] : Fin 1 → Fin S1x110x1.rank)
  bcast_S110_S1x1x110_2 : S110.BroadcastsInDim S1x1x110 (![2] : Fin 1 → Fin S1x1x110.rank)
  bcast_S_S1x110x1 : S_.BroadcastsInDim S1x110x1 (![] : Fin 0 → Fin S1x110x1.rank)
  bcast_S1x1x110_S1x110x110_0_1_2 : S1x1x110.BroadcastsInDim S1x110x110 (![0, 1, 2] : Fin 3 → Fin S1x110x110.rank)
  bcast_S1x110x1_S1x110x110_0_1_2 : S1x110x1.BroadcastsInDim S1x110x110 (![0, 1, 2] : Fin 3 → Fin S1x110x110.rank)
  bcast_S_S512x1x1 : S_.BroadcastsInDim S512x1x1 (![] : Fin 0 → Fin S512x1x1.rank)
  bcast_S1x110x1_S512x110x1_0_1_2 : S1x110x1.BroadcastsInDim S512x110x1 (![0, 1, 2] : Fin 3 → Fin S512x110x1.rank)
  bcast_S512x1x1_S512x110x1_0_1_2 : S512x1x1.BroadcastsInDim S512x110x1 (![0, 1, 2] : Fin 3 → Fin S512x110x1.rank)
  bcast_S1x1x110_S512x110x110_0_1_2 : S1x1x110.BroadcastsInDim S512x110x110 (![0, 1, 2] : Fin 3 → Fin S512x110x110.rank)
  bcast_S512x110x1_S512x110x110_0_1_2 : S512x110x1.BroadcastsInDim S512x110x110 (![0, 1, 2] : Fin 3 → Fin S512x110x110.rank)
  bcast_S1x110x110_S512x110x110_0_1_2 : S1x110x110.BroadcastsInDim S512x110x110 (![0, 1, 2] : Fin 3 → Fin S512x110x110.rank)
  bcast_S_S512x110x110 : S_.BroadcastsInDim S512x110x110 (![] : Fin 0 → Fin S512x110x110.rank)
  reducesTo_S512x110x110_S512x110_d2 : S512x110x110.ReducesTo [2] S512x110
  h_S_ : 0 < S_.numel
  bcast_S_S512x110 : S_.BroadcastsInDim S512x110 (![] : Fin 0 → Fin S512x110.rank)
  bcast_S512x110_S512x110x1_0_1 : S512x110.BroadcastsInDim S512x110x1 (![0, 1] : Fin 2 → Fin S512x110x1.rank)
  dot_S512x110x512_S512x512_S512x110x512_2_1_01_0_n_n_wf : DotDims.WF S512x110x512 S512x512 S512x110x512 [2] [1] [0, 1] [0] [] []
  dot_S512x110x512_S512x110x512_S512x110x110_2_2_1_1_0_0_wf : DotDims.WF S512x110x512 S512x110x512 S512x110x110 [2] [2] [1] [1] [0] [0]

variable [Facts₀]

def dot_S512x110x512_S512x512_S512x110x512_2_1_01_0_n_n : DotDims S512x110x512 S512x512 S512x110x512 where
  lhsContracting := [2]
  rhsContracting := [1]
  lhsNonContracting := [0, 1]
  rhsNonContracting := [0]
  lhsBatch := []
  rhsBatch := []
  wf := dot_S512x110x512_S512x512_S512x110x512_2_1_01_0_n_n_wf
def dot_S512x110x512_S512x110x512_S512x110x110_2_2_1_1_0_0 : DotDims S512x110x512 S512x110x512 S512x110x110 where
  lhsContracting := [2]
  rhsContracting := [2]
  lhsNonContracting := [1]
  rhsNonContracting := [1]
  lhsBatch := [0]
  rhsBatch := [0]
  wf := dot_S512x110x512_S512x110x512_S512x110x110_2_2_1_1_0_0_wf

class Facts : Prop extends Facts₀ where

variable [Facts]
-- ==== Proof.Spec.lean ====
/-
  The function both programs compute, as one scalar formula per output entry.

  For one batch row the inputs are a 110 × 512 block of features `x`, a sequence length `l` (a 32-bit word) and a
  512 × 512 weight `W`. Projected keys are `wn k d = ∑ e, x k e * W d e`, the score of query row `j` against key
  column `k` is `∑ d, x j d * wn k d`. Entry `(j, k)` is inside the window when `j - 10 ≤ k`, `k ≤ min (j + 10) (l - 1)`
  and `j < l` (signed comparisons of 32-bit words, wrapping arithmetic). Scores outside the window are replaced by a
  large negative constant, each row is normalised by a softmax (subtract the row maximum, exponentiate, divide by the
  row's sum), and entries outside the window are then set to zero.

  Everything is stated on the extended reals with literal index types, so that the two programs' terms can be
  brought to this one formula index by index. No finiteness is used anywhere: the two sides differ only in the order
  in which a sum or a maximum is taken, and `+` and `max` on the extended reals are commutative and associative.
-/
import Idealize.ShloMosaic.PureOps.Ideal
import Idealize.ShloMosaic.Lib.ValueIdx

noncomputable section

namespace Cert.Spec

open Idealize.ShloMosaic Idealize.ShloMosaic.ValueIdx

/-- The window test for query position `j` and key position `k` in a sequence of length `l`, on 32-bit words:
    `k ≥ j - 10`, `k ≤ min (j + 10) (l - 1)`, `j < l`, all signed, conjoined in this order. -/
def mask (l j k : BitVec 32) : BitVec 1 :=
  IntOp.andi
    (IntOp.andi (IntOp.cmpi .sge k (IntOp.subi j 10#32))
      (IntOp.cmpi .sle k (IntOp.minsi (IntOp.addi j 10#32) (IntOp.subi l 1#32))))
    (IntOp.cmpi .slt j l)

/-- The score of query row `j` against key row `k`: `∑ d, x j d * (∑ e, x k e * W d e)`. -/
def score (x : Fin 110 → Fin 512 → EReal) (W : Fin 512 → Fin 512 → EReal) (j k : Fin 110) : EReal :=
  ∑ d : Fin 512, x j d * ∑ e : Fin 512, x k e * W d e

/-- A row of scores with the entries outside the window replaced by the fill constant (the f32 word of `-1e9`). -/
def masked (msk : Fin 110 → BitVec 1) (sc : Fin 110 → EReal) (k : Fin 110) : EReal :=
  Scalar.select (msk k) (sc k) (Ideal.ofBits .f32 0xCE6E6B28#32)

/-- The maximum of a row of 110 values, as the fold of `max` from the f32 word of `-∞`. -/
def rowMax (v : Fin 110 → EReal) : EReal :=
  (Finset.univ : Finset (Fin 110)).fold max (Ideal.ofBits .f32 0xFF800000#32) v

/-- The exponential of a row's entry shifted by the row's maximum. -/
def shifted (v : Fin 110 → EReal) (k : Fin 110) : EReal := Ideal.exp (v k - rowMax v)

/-- Entry `k` of the masked softmax of a row: `exp (v k - max v) / ∑ k', exp (v k' - max v)` where `v` is the masked
    row, and zero outside the window. -/
def soft (msk : Fin 110 → BitVec 1) (sc : Fin 110 → EReal) (k : Fin 110) : EReal :=
  Scalar.select (msk k)
    (Ideal.div (shifted (masked msk sc) k) (∑ k' : Fin 110, shifted (masked msk sc) k'))
    (Ideal.ofBits .f32 0x00000000#32)

/-- Entry `(j, k)` of one batch row's result. -/
def entry (x : Fin 110 → Fin 512 → EReal) (l : BitVec 32) (W : Fin 512 → Fin 512 → EReal) (j k : Fin 110) : EReal :=
  soft (fun k' => mask l (BitVec.ofNat 32 j.val) (BitVec.ofNat 32 k'.val)) (fun k' => score x W j k') k

/-- The whole result array as one function of the three argument arrays that are read. -/
def G (nf : (⟨3, ![512, 110, 512]⟩ : Shape).Idx → EReal) (len : (⟨1, ![512]⟩ : Shape).Idx → BitVec 32)
    (W : (⟨2, ![512, 512]⟩ : Shape).Idx → EReal) : (⟨3, ![512, 110, 110]⟩ : Shape).Idx → EReal :=
  fun i => entry (fun r d => nf (ix3 (i 0 : Fin 512) r d)) (len (ix1 (i 0 : Fin 512))) (fun d e => W (ix2 d e))
    (i 1 : Fin 110) (i 2 : Fin 110)

/-- `G` at an index given by its coordinates. -/
theorem G_ix3 (nf : (⟨3, ![512, 110, 512]⟩ : Shape).Idx → EReal) (len : (⟨1, ![512]⟩ : Shape).Idx → BitVec 32)
    (W : (⟨2, ![512, 512]⟩ : Shape).Idx → EReal) (b : Fin 512) (j k : Fin 110) :
    G nf len W (ix3 b j k) = entry (fun r d => nf (ix3 b r d)) (len (ix1 b)) (fun d e => W (ix2 d e)) j k := rfl

end Cert.Spec

end
-- ==== Proof.BlockLayout.lean ====
/-
  Re-layouts of one grid step's block, read at an index given by its coordinates.

  The block of sixteen batch rows is handled in three shapes: 16 × 110 × 512 (features), 1760 × 512 (the same
  features with the batch and row axes flattened, row `bb * 110 + r`), and 16 × 110 × 110 (scores). A per-row
  quantity of shape 16 × 110 (a row maximum, a row sum) is viewed as 16 × 110 × 1 and repeated along the last axis;
  the sixteen lengths, of shape 16 × 1, are viewed as 16 × 1 × 1 and repeated along the last two axes. Each lemma
  says which entry of the operand an entry of the re-laid value is: a reshape keeps the row-major position, a
  broadcast reads coordinate `0` on an axis of extent one.
-/
import proofs.«118188_j4037269259072_1_alg».proof.Proof.Gen.KernelIdeal.Skeleton
import Idealize.ShloMosaic.Lib.Pipeline.Value
import Idealize.ShloMosaic.Lib.ValueIdx

noncomputable section

namespace Cert.KernelPay

open Cert.KernelIdeal Cert.KernelIdeal.Gen Idealize.ShloMosaic Idealize.ShloMosaic.ValueIdx

variable {α : Type}

/-- A column `16 × 110 × 1` repeated along the last axis reads its one entry of the row. -/
theorem bcast_col_apply (u : S16x110x1.Idx → α) (h : S16x110x1.Broadcasts S16x110x110) (bb : Fin 16) (j k : Fin 110) :
    broadcastTo S16x110x110 u h (ix3 bb j k) = u (ix3 bb j (0 : Fin 1)) :=
  broadcastTo_apply u h (ix3 bb j k) (ix3 bb j (0 : Fin 1)) (fun a => by
    match a with
    | ⟨0, _⟩ => rfl
    | ⟨1, _⟩ => rfl
    | ⟨2, _⟩ => rfl)

/-- A `16 × 110` array viewed with a trailing unit axis. -/
theorem cast_col_apply (v : S16x110.Idx → α) (h : S16x110.ShapeCasts S16x110x1) (bb : Fin 16) (j : Fin 110) :
    shapeCast S16x110x1 v h (ix3 bb j (0 : Fin 1)) = v (ix2 bb j) :=
  shapeCast_apply v h (ix3 bb j (0 : Fin 1)) (ix2 bb j) (by
    rw [Shape.rowMajor_val_two, Shape.rowMajor_val_three]
    show bb.val * 110 + j.val = (bb.val * 110 + j.val) * 1 + 0
    omega)

/-- A `16 × 1 × 1` array repeated along the last two axes reads the batch row's one entry. -/
theorem bcast_len_apply (u : S16x1x1.Idx → α) (h : S16x1x1.Broadcasts S16x110x110) (bb : Fin 16) (j k : Fin 110) :
    broadcastTo S16x110x110 u h (ix3 bb j k) = u (ix3 bb (0 : Fin 1) (0 : Fin 1)) :=
  broadcastTo_apply u h (ix3 bb j k) (ix3 bb (0 : Fin 1) (0 : Fin 1)) (fun a => by
    match a with
    | ⟨0, _⟩ => rfl
    | ⟨1, _⟩ => rfl
    | ⟨2, _⟩ => rfl)

/-- A `16 × 1` array viewed with a second trailing unit axis. -/
theorem cast_len_apply (w : S16x1.Idx → α) (h : S16x1.ShapeCasts S16x1x1) (bb : Fin 16) :
    shapeCast S16x1x1 w h (ix3 bb (0 : Fin 1) (0 : Fin 1)) = w (ix2 bb (0 : Fin 1)) :=
  shapeCast_apply w h (ix3 bb (0 : Fin 1) (0 : Fin 1)) (ix2 bb (0 : Fin 1)) (by
    rw [Shape.rowMajor_val_two, Shape.rowMajor_val_three]
    show bb.val * 1 + 0 = (bb.val * 1 + 0) * 1 + 0
    omega)

/-- Flattening the batch and row axes: entry `(q, d)` of the flat view, `q = bb * 110 + r`, is entry `(bb, r, d)`. -/
theorem cast_flat_apply (v : S16x110x512.Idx → α) (h : S16x110x512.ShapeCasts S1760x512) (bb : Fin 16) (r : Fin 110) (d : Fin 512)
    (q : Fin 1760) (hq : q.val = bb.val * 110 + r.val) :
    shapeCast S1760x512 v h (ix2 q d) = v (ix3 bb r d) :=
  shapeCast_apply v h (ix2 q d) (ix3 bb r d) (by
    rw [Shape.rowMajor_val_two, Shape.rowMajor_val_three]
    show (bb.val * 110 + r.val) * 512 + d.val = q.val * 512 + d.val
    rw [hq])

/-- The inverse view: entry `(bb, r, d)` of the unflattened array is entry `(bb * 110 + r, d)` of the flat one. -/
theorem cast_unflat_apply (v : S1760x512.Idx → α) (h : S1760x512.ShapeCasts S16x110x512) (bb : Fin 16) (r : Fin 110) (d : Fin 512)
    (q : Fin 1760) (hq : q.val = bb.val * 110 + r.val) :
    shapeCast S16x110x512 v h (ix3 bb r d) = v (ix2 q d) :=
  shapeCast_apply v h (ix3 bb r d) (ix2 q d) (by
    rw [Shape.rowMajor_val_two, Shape.rowMajor_val_three]
    show q.val * 512 + d.val = (bb.val * 110 + r.val) * 512 + d.val
    rw [hq])

/-- A per-row quantity viewed as a column and repeated along the row: entry `(bb, j, k)` is the quantity of row `(bb, j)`. -/
theorem keep_row_apply (v : S16x110.Idx → α) (h1 : S16x110.ShapeCasts S16x110x1) (h2 : S16x110x1.Broadcasts S16x110x110)
    (bb : Fin 16) (j k : Fin 110) :
    broadcastTo S16x110x110 (shapeCast S16x110x1 v h1) h2 (ix3 bb j k) = v (ix2 bb j) :=
  (bcast_col_apply _ h2 bb j k).trans (cast_col_apply v h1 bb j)

end Cert.KernelPay

end
-- ==== Proof.BlockProducts.lean ====
/-
  The two matrix products of one grid step, read at an index, on the extended reals.

  The first product takes the flattened features (1760 × 512) against the weight (512 × 512), both contracted on
  their SECOND axis, so entry `(q, d)` is `∑ e, L (q, e) * R (d, e)`: the features' row against the weight's row. The
  second is batched over the sixteen batch rows and contracts the last axis of both operands, so entry `(bb, j, k)`
  is `∑ d, L (bb, j, d) * R (bb, k, d)`. Both accumulate into a zero splat, which contributes nothing. The sums
  over the contraction shape's one axis are re-indexed to sums over `Fin 512`.
-/
import proofs.«118188_j4037269259072_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelPay

open Cert.KernelIdeal Cert.KernelIdeal.Gen Idealize.ShloMosaic Idealize.ShloMosaic.ValueIdx

/-- The flat product's dimension numbers: contract axis 1 of both operands, no batch axis. -/
abbrev D1 : DotDims S1760x512 S512x512 S1760x512 := dot_S1760x512_S512x512_S1760x512_1_1_0_0_n_n
/-- The batched product's dimension numbers: batch axis 0, contract axis 2 of both operands. -/
abbrev D2 : DotDims S16x110x512 S16x110x512 S16x110x110 := dot_S16x110x512_S16x110x512_S16x110x110_2_2_1_1_0_0

theorem D1_lhs0 (i : S1760x512.Idx) (q : D1.contr.Idx) : (D1.lhsIdx i q 0).val = (i 0).val := by
  unfold DotDims.lhsIdx
  rw [dif_neg (show ¬(0 : Fin S1760x512.rank) ∈ D1.lhsBatch by decide), dif_pos (show (0 : Fin S1760x512.rank) ∈ D1.lhsNonContracting by decide)]
  rfl
theorem D1_lhs1 (i : S1760x512.Idx) (q : D1.contr.Idx) : (D1.lhsIdx i q 1).val = (q ⟨0, by decide⟩).val :=
  D1.lhsIdx_val_of_single rfl i q
theorem D1_rhs0 (i : S1760x512.Idx) (q : D1.contr.Idx) : (D1.rhsIdx i q 0).val = (i 1).val := by
  unfold DotDims.rhsIdx
  rw [dif_neg (show ¬(0 : Fin S512x512.rank) ∈ D1.rhsBatch by decide), dif_pos (show (0 : Fin S512x512.rank) ∈ D1.rhsNonContracting by decide)]
  rfl
theorem D1_rhs1 (i : S1760x512.Idx) (q : D1.contr.Idx) : (D1.rhsIdx i q 1).val = (q ⟨0, by decide⟩).val :=
  D1.rhsIdx_val_of_single rfl i q

/-- The flat product into a zero accumulator, at row `q` and column `d`: the sum over the shared axis of the left
    operand's row `q` against the right operand's ROW `d` (the right operand is contracted on its second axis). -/
theorem mm1_apply (L : FVec Ideal S1760x512 .bf16) (R : FVec Ideal S512x512 .bf16) (q : Fin 1760) (d : Fin 512) :
    matmul D1 none L R (constant (F := Ideal) S1760x512 .f32 0x00000000#32) (ix2 q d)
      = ∑ e : Fin 512, L (ix2 q e) * R (ix2 d e) := by
  simp only [matmul]
  rw [Ideal.matmul_constant_zero_apply, ← Equiv.sum_comp (contrEquiv1 D1 512 rfl rfl).symm]
  refine Finset.sum_congr rfl fun e _ => ?_
  have hk := contrEquiv1_symm_val D1 512 rfl rfl e
  have el : D1.lhsIdx (ix2 q d) ((contrEquiv1 D1 512 rfl rfl).symm e) = ix2 q e := funext fun a => Fin.ext (by
    match a with
    | ⟨0, _⟩ => exact D1_lhs0 _ _
    | ⟨1, _⟩ => exact (D1_lhs1 _ _).trans hk)
  have er : D1.rhsIdx (ix2 q d) ((contrEquiv1 D1 512 rfl rfl).symm e) = ix2 d e := funext fun a => Fin.ext (by
    match a with
    | ⟨0, _⟩ => exact D1_rhs0 _ _
    | ⟨1, _⟩ => exact (D1_rhs1 _ _).trans hk)
  rw [el, er]

theorem D2_lhs0 (i : S16x110x110.Idx) (q : D2.contr.Idx) : (D2.lhsIdx i q 0).val = (i 0).val := by
  unfold DotDims.lhsIdx
  rw [dif_pos (show (0 : Fin S16x110x512.rank) ∈ D2.lhsBatch by decide)]
  rfl
theorem D2_lhs1 (i : S16x110x110.Idx) (q : D2.contr.Idx) : (D2.lhsIdx i q 1).val = (i 1).val := by
  unfold DotDims.lhsIdx
  rw [dif_neg (show ¬(1 : Fin S16x110x512.rank) ∈ D2.lhsBatch by decide), dif_pos (show (1 : Fin S16x110x512.rank) ∈ D2.lhsNonContracting by decide)]
  rfl
theorem D2_lhs2 (i : S16x110x110.Idx) (q : D2.contr.Idx) : (D2.lhsIdx i q 2).val = (q ⟨0, by decide⟩).val :=
  D2.lhsIdx_val_of_single rfl i q
theorem D2_rhs0 (i : S16x110x110.Idx) (q : D2.contr.Idx) : (D2.rhsIdx i q 0).val = (i 0).val := by
  unfold DotDims.rhsIdx
  rw [dif_pos (show (0 : Fin S16x110x512.rank) ∈ D2.rhsBatch by decide)]
  rfl
theorem D2_rhs1 (i : S16x110x110.Idx) (q : D2.contr.Idx) : (D2.rhsIdx i q 1).val = (i 2).val := by
  unfold DotDims.rhsIdx
  rw [dif_neg (show ¬(1 : Fin S16x110x512.rank) ∈ D2.rhsBatch by decide), dif_pos (show (1 : Fin S16x110x512.rank) ∈ D2.rhsNonContracting by decide)]
  rfl
theorem D2_rhs2 (i : S16x110x110.Idx) (q : D2.contr.Idx) : (D2.rhsIdx i q 2).val = (q ⟨0, by decide⟩).val :=
  D2.rhsIdx_val_of_single rfl i q

/-- The batched product into a zero accumulator at `(bb, j, k)`: row `j` of the left operand's batch `bb` against
    row `k` of the right operand's batch `bb`. -/
theorem mm2_apply (L R : FVec Ideal S16x110x512 .bf16) (bb : Fin 16) (j k : Fin 110) :
    matmul D2 none L R (constant (F := Ideal) S16x110x110 .f32 0x00000000#32) (ix3 bb j k)
      = ∑ d : Fin 512, L (ix3 bb j d) * R (ix3 bb k d) := by
  simp only [matmul]
  rw [Ideal.matmul_constant_zero_apply, ← Equiv.sum_comp (contrEquiv1 D2 512 rfl rfl).symm]
  refine Finset.sum_congr rfl fun d _ => ?_
  have hk := contrEquiv1_symm_val D2 512 rfl rfl d
  have el : D2.lhsIdx (ix3 bb j k) ((contrEquiv1 D2 512 rfl rfl).symm d) = ix3 bb j d := funext fun a => Fin.ext (by
    match a with
    | ⟨0, _⟩ => exact D2_lhs0 _ _
    | ⟨1, _⟩ => exact D2_lhs1 _ _
    | ⟨2, _⟩ => exact (D2_lhs2 _ _).trans hk)
  have er : D2.rhsIdx (ix3 bb j k) ((contrEquiv1 D2 512 rfl rfl).symm d) = ix3 bb k d := funext fun a => Fin.ext (by
    match a with
    | ⟨0, _⟩ => exact D2_rhs0 _ _
    | ⟨1, _⟩ => exact D2_rhs1 _ _
    | ⟨2, _⟩ => exact (D2_rhs2 _ _).trans hk)
  rw [el, er]

end Cert.KernelPay

end
-- ==== Proof.BlockPayload.lean ====
/-
  The arithmetic of one grid step, read entry by entry.

  From the block of features `x0` (16 × 110 × 512), the weight `x1` (512 × 512) and the block of lengths `x2`
  (16 × 1) one grid step computes a 16 × 110 × 110 block. It is the composition of three pieces: the window mask,
  which depends on the lengths only; the scores, two matrix products of the features and the weight; and the masked
  softmax of a mask and a block of scores. Entry `(bb, j, k)` of each piece is the corresponding scalar formula of
  the specification applied to batch row `bb`: the mask of `(length bb, j, k)`, the score of rows `j` and `k` of
  `x0 bb`, and the softmax entry `k` of row `(bb, j)`. Changes of float format are the identity on the extended
  reals, the row maximum is a fold of `max` over the row's 110 entries and the row sum a sum over them.
-/
import proofs.«118188_j4037269259072_1_alg».proof.Proof.Spec
import proofs.«118188_j4037269259072_1_alg».proof.Proof.BlockLayout
import proofs.«118188_j4037269259072_1_alg».proof.Proof.BlockProducts
import proofs.«118188_j4037269259072_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelPay

open Cert.KernelIdeal Cert.KernelIdeal.Gen Idealize.ShloMosaic Idealize.ShloMosaic.ValueIdx

/-! ## The three pieces -/

/-- The lengths of the block viewed as 16 × 1 × 1. -/
def lenCol (x2 : Vec Ideal S16x1 .i32) : IVec S16x1x1 32 :=
  shapeCast S16x1x1 (shapeCast S16x1 x2 shapeCasts_S16x1_S16x1) shapeCasts_S16x1_S16x1x1

/-- The window mask of the block: with `J` and `K` the row and column positions and `L` the length of the batch row,
    `K ≥ J - 10 ∧ K ≤ min (J + 10) (L - 1) ∧ J < L`. -/
def kMask (x2 : Vec Ideal S16x1 .i32) : IVec S16x110x110 1 :=
  andi
    (andi
      (cmpi .sge (iota .tc S16x110x110 32 [2] iota_S16x110x110_d2_w32)
        (subi (iota .tc S16x110x110 32 [1] iota_S16x110x110_d1_w32) (broadcast S16x110x110 10#32)))
      (cmpi .sle (iota .tc S16x110x110 32 [2] iota_S16x110x110_d2_w32)
        (minsi (addi (iota .tc S16x110x110 32 [1] iota_S16x110x110_d1_w32) (broadcast S16x110x110 10#32))
          (broadcastTo S16x110x110 (subi (lenCol x2) (broadcast S16x1x1 1#32)) broadcasts_S16x1x1_S16x110x110))))
    (cmpi .slt (iota .tc S16x110x110 32 [1] iota_S16x110x110_d1_w32)
      (broadcastTo S16x110x110 (lenCol x2) broadcasts_S16x1x1_S16x110x110))

/-- The projected keys of the block: the flattened features times the weight, viewed again per batch row. -/
def kKeys (x0 : Vec Ideal S16x110x512 .f32) (x1 : Vec Ideal S512x512 .f32) : FVec Ideal S16x110x512 .f32 :=
  shapeCast S16x110x512
    (matmul D1 none (shapeCast S1760x512 (truncf .bf16 x0 bitsLt_bf16_f32) shapeCasts_S16x110x512_S1760x512)
      (truncf .bf16 x1 bitsLt_bf16_f32) (constant S1760x512 .f32 0x00000000#32))
    shapeCasts_S1760x512_S16x110x512

/-- The scores of the block: per batch row, the features against the projected keys. -/
def kScores (x0 : Vec Ideal S16x110x512 .f32) (x1 : Vec Ideal S512x512 .f32) : FVec Ideal S16x110x110 .f32 :=
  matmul D2 none (truncf .bf16 x0 bitsLt_bf16_f32) (truncf .bf16 (kKeys x0 x1) bitsLt_bf16_f32)
    (constant S16x110x110 .f32 0x00000000#32)

/-- Scores with the entries outside the window replaced by the fill constant. -/
def maskedV (M : IVec S16x110x110 1) (S : FVec Ideal S16x110x110 .f32) : FVec Ideal S16x110x110 .f32 :=
  select M S (broadcast S16x110x110 (Scalar.ofBits .f32 0xCE6E6B28#32))

/-- The exponentials of the masked scores shifted by their row's maximum. -/
def expV (M : IVec S16x110x110 1) (S : FVec Ideal S16x110x110 .f32) : FVec Ideal S16x110x110 .f32 :=
  exp (subf (maskedV M S)
    (broadcastTo S16x110x110
      (shapeCast S16x110x1
        (multiReduction .maximumf [2] S16x110 (maskedV M S) 0xFF800000#32 reduces_S16x110x110_S16x110 (.inl rfl) rfl)
        shapeCasts_S16x110_S16x110x1)
      broadcasts_S16x110x1_S16x110x110))

/-- The masked softmax of a block of scores: the shifted exponentials over their row sums, zero outside the window. -/
def softV (M : IVec S16x110x110 1) (S : FVec Ideal S16x110x110 .f32) : FVec Ideal S16x110x110 .f32 :=
  select M
    (divf (expV M S)
      (broadcastTo S16x110x110
        (shapeCast S16x110x1
          (multiReduction .add [2] S16x110 (expV M S) 0x00000000#32 reduces_S16x110x110_S16x110 (.inl rfl) rfl)
          shapeCasts_S16x110_S16x110x1)
        broadcasts_S16x110x1_S16x110x110))
    (broadcast S16x110x110 (Scalar.ofBits .f32 0x00000000#32))

/-- The body's stored value is the masked softmax of the block's mask and scores. -/
theorem pay_eq (x0 : Vec Ideal S16x110x512 .f32) (x1 : Vec Ideal S512x512 .f32) (x2 : Vec Ideal S16x1 .i32) :
    k0_pay1 (F := Ideal) x0 x1 x2 = softV (kMask x2) (kScores x0 x1) := rfl

/-! ## The pieces at an index -/

/-- Row `(bb, j)` with column `k` inserted on the reduced axis is entry `(bb, j, k)`. -/
theorem lift_eq (bb : Fin 16) (j k : Fin 110) : reduces_S16x110x110_S16x110.lift (ix2 bb j) k = ix3 bb j k :=
  funext fun a => Fin.ext (by
    match a with
    | ⟨0, _⟩ => rfl
    | ⟨1, _⟩ => rfl
    | ⟨2, _⟩ => rfl)

/-- The mask at `(bb, j, k)` is the window test of `(j, k)` against the length of batch row `bb`. -/
theorem kMask_apply (x2 : Vec Ideal S16x1 .i32) (bb : Fin 16) (j k : Fin 110) :
    kMask x2 (ix3 bb j k) = Spec.mask (x2 (ix2 bb (0 : Fin 1))) (BitVec.ofNat 32 j.val) (BitVec.ofNat 32 k.val) := by
  have hJ : iota .tc S16x110x110 32 [1] iota_S16x110x110_d1_w32 (ix3 bb j k) = BitVec.ofNat 32 j.val :=
    iota_single_apply .tc S16x110x110 32 1 iota_S16x110x110_d1_w32 (ix3 bb j k)
  have hK : iota .tc S16x110x110 32 [2] iota_S16x110x110_d2_w32 (ix3 bb j k) = BitVec.ofNat 32 k.val :=
    iota_single_apply .tc S16x110x110 32 2 iota_S16x110x110_d2_w32 (ix3 bb j k)
  have hL : lenCol x2 (ix3 bb (0 : Fin 1) (0 : Fin 1)) = x2 (ix2 bb (0 : Fin 1)) := by
    unfold lenCol
    rw [cast_len_apply, shapeCast_self]
  have h18 : broadcastTo S16x110x110 (subi (lenCol x2) (broadcast S16x1x1 1#32)) broadcasts_S16x1x1_S16x110x110 (ix3 bb j k) = IntOp.subi (x2 (ix2 bb (0 : Fin 1))) 1#32 := by
    rw [bcast_len_apply]
    show IntOp.subi (lenCol x2 _) 1#32 = _
    rw [hL]
  have h25 : broadcastTo S16x110x110 (lenCol x2) broadcasts_S16x1x1_S16x110x110 (ix3 bb j k) = x2 (ix2 bb (0 : Fin 1)) := by
    rw [bcast_len_apply, hL]
  show IntOp.andi
      (IntOp.andi (IntOp.cmpi .sge (iota .tc S16x110x110 32 [2] iota_S16x110x110_d2_w32 (ix3 bb j k)) (IntOp.subi (iota .tc S16x110x110 32 [1] iota_S16x110x110_d1_w32 (ix3 bb j k)) 10#32))
        (IntOp.cmpi .sle (iota .tc S16x110x110 32 [2] iota_S16x110x110_d2_w32 (ix3 bb j k)) (IntOp.minsi (IntOp.addi (iota .tc S16x110x110 32 [1] iota_S16x110x110_d1_w32 (ix3 bb j k)) 10#32) (broadcastTo S16x110x110 (subi (lenCol x2) (broadcast S16x1x1 1#32)) broadcasts_S16x1x1_S16x110x110 (ix3 bb j k)))))
      (IntOp.cmpi .slt (iota .tc S16x110x110 32 [1] iota_S16x110x110_d1_w32 (ix3 bb j k)) (broadcastTo S16x110x110 (lenCol x2) broadcasts_S16x1x1_S16x110x110 (ix3 bb j k))) = _
  rw [hJ, hK, h18, h25]
  rfl

/-- The projected keys at `(bb, k, d)`: row `k` of batch row `bb` against row `d` of the weight. -/
theorem kKeys_apply (x0 : Vec Ideal S16x110x512 .f32) (x1 : Vec Ideal S512x512 .f32) (bb : Fin 16) (k : Fin 110) (d : Fin 512) :
    kKeys x0 x1 (ix3 bb k d) = ∑ e : Fin 512, x0 (ix3 bb k e) * x1 (ix2 d e) := by
  have hq : bb.val * 110 + k.val < 1760 := by have := bb.isLt; have := k.isLt; omega
  unfold kKeys
  rw [cast_unflat_apply _ _ bb k d ⟨bb.val * 110 + k.val, hq⟩ rfl, mm1_apply]
  refine Finset.sum_congr rfl fun e _ => ?_
  rw [cast_flat_apply _ _ bb k e ⟨bb.val * 110 + k.val, hq⟩ rfl]
  rfl

/-- The scores at `(bb, j, k)` are the specification's score of rows `j` and `k` of batch row `bb`. -/
theorem kScores_apply (x0 : Vec Ideal S16x110x512 .f32) (x1 : Vec Ideal S512x512 .f32) (bb : Fin 16) (j k : Fin 110) :
    kScores x0 x1 (ix3 bb j k) = Spec.score (fun r d => x0 (ix3 bb r d)) (fun d e => x1 (ix2 d e)) j k := by
  unfold kScores Spec.score
  rw [mm2_apply]
  refine Finset.sum_congr rfl fun d _ => ?_
  show x0 (ix3 bb j d) * kKeys x0 x1 (ix3 bb k d) = _
  rw [kKeys_apply]

theorem maskedV_apply (M : IVec S16x110x110 1) (S : FVec Ideal S16x110x110 .f32) (bb : Fin 16) (j k : Fin 110) :
    maskedV M S (ix3 bb j k) = Spec.masked (fun k' => M (ix3 bb j k')) (fun k' => S (ix3 bb j k')) k := rfl

/-- A row maximum of a block: the fold of `max` over the row's entries. -/
theorem rowmax_apply (V : FVec Ideal S16x110x110 .f32) (bb : Fin 16) (j : Fin 110) :
    multiReduction .maximumf [2] S16x110 V 0xFF800000#32 reduces_S16x110x110_S16x110 (.inl rfl) rfl (ix2 bb j)
      = Spec.rowMax (fun k' => V (ix3 bb j k')) :=
  (Ideal.multiReduction_maximumf_single V 0xFF800000#32 reduces_S16x110x110_S16x110 (.inl rfl) rfl (ix2 bb j)).trans
    (Finset.fold_congr fun k' _ => congrArg V (lift_eq bb j k'))

/-- A row sum of a block: the sum over the row's entries. -/
theorem rowsum_apply (V : FVec Ideal S16x110x110 .f32) (bb : Fin 16) (j : Fin 110) :
    multiReduction .add [2] S16x110 V 0x00000000#32 reduces_S16x110x110_S16x110 (.inl rfl) rfl (ix2 bb j)
      = ∑ k' : Fin 110, V (ix3 bb j k') :=
  (Ideal.multiReduction_add_single V 0x00000000#32 reduces_S16x110x110_S16x110 (.inl rfl) rfl (ix2 bb j)).trans
    (Finset.sum_congr rfl fun k' _ => congrArg V (lift_eq bb j k'))

/-- The shifted exponential at `(bb, j, k)`. -/
theorem expV_apply (M : IVec S16x110x110 1) (S : FVec Ideal S16x110x110 .f32) (bb : Fin 16) (j k : Fin 110) :
    expV M S (ix3 bb j k) = Spec.shifted (Spec.masked (fun k' => M (ix3 bb j k')) (fun k' => S (ix3 bb j k'))) k := by
  have h := keep_row_apply (multiReduction .maximumf [2] S16x110 (maskedV M S) 0xFF800000#32 reduces_S16x110x110_S16x110 (.inl rfl) rfl) shapeCasts_S16x110_S16x110x1 broadcasts_S16x110x1_S16x110x110 bb j k
  unfold expV
  show Ideal.exp (maskedV M S (ix3 bb j k) - _) = _
  rw [h, rowmax_apply]
  rfl

/-- The masked softmax at `(bb, j, k)` is the specification's, of row `(bb, j)` of the mask and of the scores. -/
theorem softV_apply (M : IVec S16x110x110 1) (S : FVec Ideal S16x110x110 .f32) (bb : Fin 16) (j k : Fin 110) :
    softV M S (ix3 bb j k) = Spec.soft (fun k' => M (ix3 bb j k')) (fun k' => S (ix3 bb j k')) k := by
  have h := keep_row_apply (multiReduction .add [2] S16x110 (expV M S) 0x00000000#32 reduces_S16x110x110_S16x110 (.inl rfl) rfl) shapeCasts_S16x110_S16x110x1 broadcasts_S16x110x1_S16x110x110 bb j k
  unfold softV
  show Scalar.select (M (ix3 bb j k)) (Ideal.div (expV M S (ix3 bb j k)) _) (Ideal.ofBits .f32 0x00000000#32) = _
  rw [h, rowsum_apply, expV_apply]
  unfold Spec.soft
  refine congrArg (fun s => Scalar.select (M (ix3 bb j k)) (Ideal.div _ s) _) ?_
  exact Finset.sum_congr rfl fun k' _ => expV_apply M S bb j k'

/-- THE BODY'S VALUE at `(bb, j, k)`: the specification's entry `(j, k)` of batch row `bb` of the block. -/
theorem pay_apply (x0 : Vec Ideal S16x110x512 .f32) (x1 : Vec Ideal S512x512 .f32) (x2 : Vec Ideal S16x1 .i32)
    (bb : Fin 16) (j k : Fin 110) :
    k0_pay1 (F := Ideal) x0 x1 x2 (ix3 bb j k)
      = Spec.entry (fun r d => x0 (ix3 bb r d)) (x2 (ix2 bb (0 : Fin 1))) (fun d e => x1 (ix2 d e)) j k := by
  rw [pay_eq, softV_apply]
  unfold Spec.entry
  congr 1
  · funext k'; exact kMask_apply x2 bb j k'
  · funext k'; exact kScores_apply x0 x1 bb j k'

end Cert.KernelPay

end
-- ==== Proof.BlockArray.lean ====
/-
  From the blocks to the whole result array.

  The grid has 32 points; point `t` reads batch rows `16 t … 16 t + 15` of the features and of the lengths, the whole
  weight, and writes batch rows `16 t … 16 t + 15` of the result. The lengths reach the region as a 512 × 1 array, a
  reshape of the length argument, so its entry `(b, 0)` is the argument's entry `b`. By the entry-by-entry reading
  of one grid step's arithmetic, what point `t` writes back is block `t` of the specification's array `G` of the three
  argument arrays; the 32 blocks cover every batch row (row `b` is in block `b / 16`), so after the run the result
  array is `G`.
-/
import proofs.«118188_j4037269259072_1_alg».proof.Proof.Spec
import proofs.«118188_j4037269259072_1_alg».proof.Proof.BlockPayload
import proofs.«118188_j4037269259072_1_alg».proof.Proof.Gen.KernelIdeal.Value
import Idealize.ShloMosaic.Lib.Pipeline.Value
import Idealize.ShloMosaic.Lib.ValueIdx
import Idealize.ShloMosaic.Lib.StableHlo.Run

noncomputable section

namespace Cert.KernelArr

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the features', the lengths' and the result's block
    index is `(t, 0, …)`, the weight's is `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem lt_N (t : Fin cfg0.N) : t.val < 32 := Nat.lt_of_lt_of_eq t.isLt N_0

/-- The lengths as the region finds them: the reshape of the length argument to 512 × 1. -/
theorem V_len (c : Dev nD) :
    (V m c main_v0 : S512x1.Idx → BitVec 32) = shapeCast S512x1 (m ((c : Thread nD τ).loc main_arg1)) shapeCasts_S512_S512x1 := by
  dsimp only [V, hostOps0]
  after_results
  rfl

/-- Entry `(b, 0)` of the lengths as the region finds them is entry `b` of the length argument. -/
theorem V_len_apply (c : Dev nD) (b : Fin 512) :
    (V m c main_v0 : S512x1.Idx → BitVec 32) (ix2 b (0 : Fin 1)) = (m ((c : Thread nD τ).loc main_arg1) : S512.Idx → BitVec 32) (ix1 b) := by
  rw [V_len]
  exact shapeCast_apply _ shapeCasts_S512_S512x1 (ix2 b (0 : Fin 1)) (ix1 b) (by
    rw [Shape.rowMajor_val_one, Shape.rowMajor_val_two]
    show b.val = b.val * 1 + 0
    omega)

/-! ## Each input window's block at a grid point, as entries of the argument arrays -/

/-- The features' block at point `t`: entry `(bb, r, d)` is entry `(16 t + bb, r, d)` of the argument. -/
theorem blk0_apply (c : Dev nD) (t : Fin cfg0.N) (bb : Fin 16) (r : Fin 110) (d : Fin 512) (q : Fin 512)
    (hq : q.val = t.val * 16 + bb.val) :
    (iblk m c 0 t : Vec Ideal S16x110x512 .f32) (ix3 bb r d)
      = (m ((c : Thread nD τ).loc main_arg0) : S512x110x512.Idx → EReal) (ix3 q r d) := by
  obtain ⟨e0, e1, e2, -⟩ := idx_facts t
  unfold iblk
  rw [View.read_apply]
  show V m c main_arg0 _ = m ((c : Thread nD τ).loc main_arg0) _
  refine (congrFun (V_main_arg0 m c) _).trans ?_
  refine congrArg (m ((c : Thread nD τ).loc main_arg0)) ?_
  funext a
  apply Fin.ext
  match a with
  | ⟨0, _⟩ => show win0_0.index t (0 : Fin 3) * 16 + 1 * bb.val = q.val; rw [e0, hq]; omega
  | ⟨1, _⟩ => show win0_0.index t (1 : Fin 3) * 110 + 1 * r.val = r.val; rw [e1]; omega
  | ⟨2, _⟩ => show win0_0.index t (2 : Fin 3) * 512 + 1 * d.val = d.val; rw [e2]; omega

/-- The weight's block at every point is the whole weight. -/
theorem blk1_apply (c : Dev nD) (t : Fin cfg0.N) (d e : Fin 512) :
    (iblk m c 1 t : Vec Ideal S512x512 .f32) (ix2 d e)
      = (m ((c : Thread nD τ).loc main_arg3) : S512x512.Idx → EReal) (ix2 d e) := by
  obtain ⟨-, -, -, e0, e1, -⟩ := idx_facts t
  unfold iblk
  rw [View.read_apply]
  show V m c main_arg3 _ = m ((c : Thread nD τ).loc main_arg3) _
  refine (congrFun (V_main_arg3 m c) _).trans ?_
  refine congrArg (m ((c : Thread nD τ).loc main_arg3)) ?_
  funext a
  apply Fin.ext
  match a with
  | ⟨0, _⟩ => show win0_1.index t (0 : Fin 2) * 512 + 1 * d.val = d.val; rw [e0]; omega
  | ⟨1, _⟩ => show win0_1.index t (1 : Fin 2) * 512 + 1 * e.val = e.val; rw [e1]; omega

/-- The lengths' block at point `t`: entry `(bb, 0)` is entry `16 t + bb` of the length argument. -/
theorem blk2_apply (c : Dev nD) (t : Fin cfg0.N) (bb : Fin 16) (q : Fin 512) (hq : q.val = t.val * 16 + bb.val) :
    (iblk m c 2 t : Vec Ideal S16x1 .i32) (ix2 bb (0 : Fin 1))
      = (m ((c : Thread nD τ).loc main_arg1) : S512.Idx → BitVec 32) (ix1 q) := by
  obtain ⟨-, -, -, -, -, e0, e1, -⟩ := idx_facts t
  unfold iblk
  rw [View.read_apply]
  show V m c main_v0 _ = _
  refine Eq.trans ?_ (V_len_apply m c q)
  refine congrArg (V m c main_v0) ?_
  funext a
  apply Fin.ext
  match a with
  | ⟨0, _⟩ => show win0_2.index t (0 : Fin 2) * 16 + 1 * bb.val = q.val; rw [e0, hq]; omega
  | ⟨1, _⟩ => show win0_2.index t (1 : Fin 2) * 1 + 1 * 0 = 0; rw [e1]

/-! ## What one grid point writes back -/

/-- One grid step, stated over variables: if the three loaded blocks are rows `16 tt + bb` of three arrays, the
    step's value at block entry `y` is `G` of those arrays at the array entry `i` under it. -/
theorem block_eq (x0 : Vec Ideal S16x110x512 .f32) (x1 : Vec Ideal S512x512 .f32) (x2 : Vec Ideal S16x1 .i32)
    (A0 : S512x110x512.Idx → EReal) (A1 : S512.Idx → BitVec 32) (A3 : S512x512.Idx → EReal) (tt : Nat) (htt : tt < 32)
    (h0 : ∀ (bb : Fin 16) (r : Fin 110) (d : Fin 512) (q : Fin 512), q.val = tt * 16 + bb.val → x0 (ix3 bb r d) = A0 (ix3 q r d))
    (h1 : ∀ d e : Fin 512, x1 (ix2 d e) = A3 (ix2 d e))
    (h2 : ∀ (bb : Fin 16) (q : Fin 512), q.val = tt * 16 + bb.val → x2 (ix2 bb (0 : Fin 1)) = A1 (ix1 q))
    (y : S16x110x110.Idx) (i : S512x110x110.Idx)
    (hi0 : (i 0).val = tt * 16 + (y 0).val) (hi1 : (i 1).val = (y 1).val) (hi2 : (i 2).val = (y 2).val) :
    k0_pay1 (F := Ideal) x0 x1 x2 y = Spec.G A0 A1 A3 i := by
  obtain ⟨p, q, r, rfl⟩ : ∃ (p : Fin 16) (q r : Fin 110), y = ix3 p q r := ⟨y 0, y 1, y 2, eq_ix3 y⟩
  obtain ⟨b, j, k, rfl⟩ : ∃ (b : Fin 512) (j k : Fin 110), i = ix3 b j k := ⟨i 0, i 1, i 2, eq_ix3 i⟩
  have hj : j = q := Fin.ext hi1
  have hk : k = r := Fin.ext hi2
  subst hj hk
  rw [KernelPay.pay_apply, Spec.G_ix3]
  have hb : b.val = tt * 16 + p.val := hi0
  congr 1
  · funext r' d; exact h0 p r' d b hb
  · exact h2 p b hb
  · funext d e; exact h1 d e

/-- WHAT POINT `t` WRITES BACK is block `t` of `G` of the argument arrays. -/
theorem flushed_eq (c : Dev nD) (t : Fin cfg0.N) :
    (dats m 0 c).flushed 3 t = ((cfg0.win 3).blk t).view.read (Elt Ideal)
      (Spec.G (m ((c : Thread nD τ).loc main_arg0)) (m ((c : Thread nD τ).loc main_arg1)) (m ((c : Thread nD τ).loc main_arg3))) := by
  rw [flushed3]
  unfold out0_3
  rw [View.canon_unit_zero hz3]
  simp only [View.ld_unit_zero (S := S16x110x512) hz3, View.ld_unit_zero (S := S512x512) hz2, View.ld_unit_zero (S := S16x1) hz2]
  obtain ⟨-, -, -, -, -, -, -, e0, e1, e2⟩ := idx_facts t
  funext y
  show k0_pay1 (F := Ideal) (iblk m c 0 t) (iblk m c 1 t) (iblk m c 2 t) y = Spec.G _ _ _ (((cfg0.win 3).blk t).view.emb y)
  refine block_eq (iblk m c 0 t) (iblk m c 1 t) (iblk m c 2 t) (m ((c : Thread nD τ).loc main_arg0)) (m ((c : Thread nD τ).loc main_arg1))
    (m ((c : Thread nD τ).loc main_arg3)) t.val (lt_N t) (fun bb r d q hq => blk0_apply m c t bb r d q hq) (fun d e => blk1_apply m c t d e)
    (fun bb q hq => blk2_apply m c t bb q hq) y (((cfg0.win 3).blk t).view.emb y) ?_ ?_ ?_
  · show win0_3.index t (0 : Fin 3) * 16 + 1 * (y 0).val = t.val * 16 + (y 0).val
    rw [e0]; omega
  · show win0_3.index t (1 : Fin 3) * 110 + 1 * (y 1).val = (y 1).val
    rw [e1]; omega
  · show win0_3.index t (2 : Fin 3) * 110 + 1 * (y 2).val = (y 2).val
    rw [e2]; omega

/-! ## The blocks cover the array -/

/-- An entry of the array is in point `t`'s block iff each coordinate is in the block's range on its axis. -/
theorem mem_blk (t : Fin cfg0.N) (i : S512x110x110.Idx) :
    i ∈ ((cfg0.win 3).blk t).view.set ↔ ∀ a : Fin 3, win0_3.index t a * S16x110x110.size a ≤ (i a).val
      ∧ (i a).val < win0_3.index t a * S16x110x110.size a + S16x110x110.size a := by
  show i ∈ ((View.whole main_v1).slice (win0_3.rect t)).set ↔ _
  rw [View.set_slice_whole, Rect.mem_set_unit]
  exact Iff.rfl

/-- Batch row `b` lies in the block of point `b / 16`, which writes back. -/
theorem cover (i : S512x110x110.Idx) :
    ∃ t : Fin cfg0.N, (cfg0.win 3).flush t = true ∧ i ∈ ((cfg0.win 3).blk t).view.set := by
  have hi0 : (i 0).val < 512 := (i 0).isLt
  have hi1 : (i 1).val < 110 := (i 1).isLt
  have hi2 : (i 2).val < 110 := (i 2).isLt
  have hN : (i 0).val / 16 < cfg0.N := Nat.lt_of_lt_of_eq (by omega) N_0.symm
  obtain ⟨-, -, -, -, -, -, -, e0, e1, e2⟩ := idx_facts ⟨(i 0).val / 16, hN⟩
  refine ⟨⟨(i 0).val / 16, hN⟩, flush0_3 _, ?_⟩
  rw [mem_blk]
  intro a
  match a with
  | ⟨0, _⟩ =>
    show win0_3.index ⟨(i 0).val / 16, hN⟩ (0 : Fin 3) * 16 ≤ (i 0).val ∧ (i 0).val < win0_3.index ⟨(i 0).val / 16, hN⟩ (0 : Fin 3) * 16 + 16
    rw [e0]; show (i 0).val / 16 * 16 ≤ (i 0).val ∧ (i 0).val < (i 0).val / 16 * 16 + 16; omega
  | ⟨1, _⟩ =>
    show win0_3.index ⟨(i 0).val / 16, hN⟩ (1 : Fin 3) * 110 ≤ (i 1).val ∧ (i 1).val < win0_3.index ⟨(i 0).val / 16, hN⟩ (1 : Fin 3) * 110 + 110
    rw [e1]; omega
  | ⟨2, _⟩ =>
    show win0_3.index ⟨(i 0).val / 16, hN⟩ (2 : Fin 3) * 110 ≤ (i 2).val ∧ (i 2).val < win0_3.index ⟨(i 0).val / 16, hN⟩ (2 : Fin 3) * 110 + 110
    rw [e2]; omega

/-- THE RESULT ARRAY after the run is `G` of the argument arrays. -/
theorem final (c : Dev nD) :
    (dats m 0 c).arrAt 3 cfg0.N
      = Spec.G (m ((c : Thread nD τ).loc main_arg0)) (m ((c : Thread nD τ).loc main_arg1)) (m ((c : Thread nD τ).loc main_arg3)) :=
  (dats m 0 c).arrAt_eq_of_cover 3
    (Spec.G (m ((c : Thread nD τ).loc main_arg0)) (m ((c : Thread nD τ).loc main_arg1)) (m ((c : Thread nD τ).loc main_arg3)))
    (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1)
        = Spec.G (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelArr

end
-- ==== Proof.RefValue.lean ====
/-
  The reference program's result, read at one index, is the scalar formula `Cert.Spec.entry`.

  The reference computes the projected keys and the scores by two contractions, builds the window test from two
  iotas and the row's length word, replaces the scores outside the window by the fill constant, takes each row's
  maximum by a fold of `max` from `-∞` (and once more `max` with `-∞`, which changes nothing), exponentiates the
  differences, sums each row from zero, divides, and puts zero outside the window. Each step is read at an index
  `(b, j, k)` given by its coordinates, so that every broadcast's index map computes.
-/
import proofs.«118188_j4037269259072_1_alg».proof.Proof.Spec
import proofs.«118188_j4037269259072_1_alg».proof.Proof.Gen.ReferenceIdeal.Read
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx

/-- One batch row of the features, by its two coordinates. -/
abbrev rowOf (x0 : (⟨S512x110x512, .f32⟩ : BufTy).Contents (Elt Ideal)) (b : Fin 512) : Fin 110 → Fin 512 → EReal :=
  fun r d => x0 (ix3 b r d)

/-- The weight, by its two coordinates. -/
abbrev weightOf (x3 : (⟨S512x512, .f32⟩ : BufTy).Contents (Elt Ideal)) : Fin 512 → Fin 512 → EReal :=
  fun d e => x3 (ix2 d e)

/-- The window test of query row `j` of batch row `b`, as a function of the key position. -/
abbrev maskRow (x1 : (⟨S512, .i32⟩ : BufTy).Contents (Elt Ideal)) (b : Fin 512) (j : Fin 110) : Fin 110 → BitVec 1 :=
  fun k' => Cert.Spec.mask (x1 (ix1 b)) (BitVec.ofNat 32 j.val) (BitVec.ofNat 32 k'.val)

/-- The scores of query row `j` of batch row `b`, as a function of the key position. -/
abbrev scoreRow (x0 : (⟨S512x110x512, .f32⟩ : BufTy).Contents (Elt Ideal)) (x3 : (⟨S512x512, .f32⟩ : BufTy).Contents (Elt Ideal))
    (b : Fin 512) (j : Fin 110) : Fin 110 → EReal :=
  fun k' => Cert.Spec.score (rowOf x0 b) (weightOf x3) j k'

/-- The conjunction of the three comparisons the reference builds from its iotas and the length word is the window
    test at `(j, k)`: the key position is the index's last coordinate, the query position its middle one, and the
    length is read at the batch coordinate. -/
theorem mask_apply (x1 : (⟨S512, .i32⟩ : BufTy).Contents (Elt Ideal)) (b : Fin 512) (j k : Fin 110) :
    val_main_v28 (F := Ideal) x1 (ix3 b j k) = maskRow x1 b j k := by
  have e17 : idx_main_v2 (idx_main_v17 (idx_main_v20 (ix3 b j k))) = ix1 b :=
    funext fun a => Fin.ext (by match a with | ⟨0, _⟩ => rfl)
  simp only [val_main_v28_apply, val_main_v23_apply, val_main_v27_apply, val_main_v22_apply, val_main_v21_apply,
    val_main_v26_apply, val_main_v11_apply, val_main_v9_apply, val_main_v10_apply, val_main_v8_apply, val_main_v4_apply,
    val_main_v7_apply, val_main_v6_apply, val_main_v5_apply, val_main_v3_apply, val_main_v19_apply, val_main_v20_apply,
    val_main_v18_apply, val_main_v16_apply, val_main_v17_apply, val_main_v13_apply, val_main_v12_apply, val_main_v15_apply,
    val_main_v14_apply, val_main_v2_apply, val_main_v24_apply, val_main_v25_apply, val_main_c_apply, val_main_c_0_apply,
    val_main_c_1_apply]
  rw [e17]
  rfl

/-- The two contractions, read at an index: the score of query row `j` against key row `k` is the double sum
    `∑ d, x j d * ∑ e, x k e * W d e`. -/
theorem score_apply (x0 : (⟨S512x110x512, .f32⟩ : BufTy).Contents (Elt Ideal)) (x3 : (⟨S512x512, .f32⟩ : BufTy).Contents (Elt Ideal))
    (b : Fin 512) (j k : Fin 110) :
    val_main_v1 (F := Ideal) x0 x3 (ix3 b j k) = scoreRow x0 x3 b j k := by
  rw [val_main_v1_apply]
  show _ = ∑ d : Fin 512, x0 (ix3 b j d) * ∑ e : Fin 512, x0 (ix3 b k e) * x3 (ix2 d e)
  refine Finset.sum_congr rfl fun d _ => ?_
  have el : lidx_main_v1 (ix3 b j k) d = ix3 b j d :=
    funext fun a => Fin.ext (by match a with | ⟨0, _⟩ => rfl | ⟨1, _⟩ => rfl | ⟨2, _⟩ => rfl)
  have er : ridx_main_v1 (ix3 b j k) d = ix3 b k d :=
    funext fun a => Fin.ext (by match a with | ⟨0, _⟩ => rfl | ⟨1, _⟩ => rfl | ⟨2, _⟩ => rfl)
  rw [el, er, val_main_v0_apply]
  refine congrArg (x0 (ix3 b j d) * ·) (Finset.sum_congr rfl fun e _ => ?_)
  have el0 : lidx_main_v0 (ix3 b k d) e = ix3 b k e :=
    funext fun a => Fin.ext (by match a with | ⟨0, _⟩ => rfl | ⟨1, _⟩ => rfl | ⟨2, _⟩ => rfl)
  have er0 : ridx_main_v0 (ix3 b k d) e = ix2 d e :=
    funext fun a => Fin.ext (by match a with | ⟨0, _⟩ => rfl | ⟨1, _⟩ => rfl)
  rw [el0, er0]

/-- The first select: the score inside the window, the fill constant outside. -/
theorem masked_apply (x0 : (⟨S512x110x512, .f32⟩ : BufTy).Contents (Elt Ideal)) (x1 : (⟨S512, .i32⟩ : BufTy).Contents (Elt Ideal))
    (x3 : (⟨S512x512, .f32⟩ : BufTy).Contents (Elt Ideal)) (b : Fin 512) (j k : Fin 110) :
    val_main_v29 (F := Ideal) x0 x1 x3 (ix3 b j k) = Cert.Spec.masked (maskRow x1 b j) (scoreRow x0 x3 b j) k := by
  rw [val_main_v29_apply, mask_apply, score_apply, val_main_call0_v1_apply, val_main_call0_v0_apply, val_main_cst_apply]
  rfl

/-- The row maximum. The reduction over the last axis is the fold of `max` from `-∞` over the key positions, and the
    further `max` with `-∞` is absorbed: the fold starts from that same value, so it is already above it. -/
theorem rowMax_apply (x0 : (⟨S512x110x512, .f32⟩ : BufTy).Contents (Elt Ideal)) (x1 : (⟨S512, .i32⟩ : BufTy).Contents (Elt Ideal))
    (x3 : (⟨S512x512, .f32⟩ : BufTy).Contents (Elt Ideal)) (b : Fin 512) (j : Fin 110) :
    val_main_v32 (F := Ideal) x0 x1 x3 (ix2 b j) = Cert.Spec.rowMax (Cert.Spec.masked (maskRow x1 b j) (scoreRow x0 x3 b j)) := by
  have h : S512x110x110.Reduces [2] S512x110 := by decide
  rw [val_main_v32_apply, val_main_v31_apply, val_main_cst_3_apply]
  unfold val_main_v30
  rw [Host.reduce_eq_fold_single FloatOps.maximumf _ _ reducesTo_S512x110x110_S512x110_d2 h h_S_ (ix2 b j),
    val_main_cst_2_apply]
  have hf : ∀ k' : Fin 110, (val_main_v29 (F := Ideal) x0 x1 x3 ∘ h.lift (ix2 b j)) k'
      = Cert.Spec.masked (maskRow x1 b j) (scoreRow x0 x3 b j) k' := fun k' => by
    have e : h.lift (ix2 b j) k' = ix3 b j k' :=
      funext fun a => Fin.ext (by match a with | ⟨0, _⟩ => rfl | ⟨1, _⟩ => rfl | ⟨2, _⟩ => rfl)
    show val_main_v29 (F := Ideal) x0 x1 x3 (h.lift (ix2 b j) k') = _
    rw [e, masked_apply]
  show max (Ideal.ofBits .f32 0xFF800000#32)
      (Finset.fold max (Ideal.ofBits .f32 0xFF800000#32) (val_main_v29 (F := Ideal) x0 x1 x3 ∘ h.lift (ix2 b j)) Finset.univ)
    = Finset.fold max (Ideal.ofBits .f32 0xFF800000#32) (Cert.Spec.masked (maskRow x1 b j) (scoreRow x0 x3 b j)) Finset.univ
  exact (max_eq_right ((Finset.le_fold_max _).mpr (Or.inl le_rfl))).trans (Finset.fold_congr fun k' _ => hf k')

/-- The exponential of the masked score minus its row's maximum (the maximum is broadcast back along the keys). -/
theorem shifted_apply (x0 : (⟨S512x110x512, .f32⟩ : BufTy).Contents (Elt Ideal)) (x1 : (⟨S512, .i32⟩ : BufTy).Contents (Elt Ideal))
    (x3 : (⟨S512x512, .f32⟩ : BufTy).Contents (Elt Ideal)) (b : Fin 512) (j k : Fin 110) :
    val_main_v36 (F := Ideal) x0 x1 x3 (ix3 b j k)
      = Cert.Spec.shifted (Cert.Spec.masked (maskRow x1 b j) (scoreRow x0 x3 b j)) k := by
  have e : idx_main_v33 (idx_main_v34 (ix3 b j k)) = ix2 b j :=
    funext fun a => Fin.ext (by match a with | ⟨0, _⟩ => rfl | ⟨1, _⟩ => rfl)
  rw [val_main_v36_apply, val_main_v35_apply, val_main_v34_apply, val_main_v33_apply, e, rowMax_apply, masked_apply]
  rfl

/-- The row sum: the reduction starts from the zero word, which is the extended real `0`, and adds the
    exponentials over the key positions. -/
theorem rowSum_apply (x0 : (⟨S512x110x512, .f32⟩ : BufTy).Contents (Elt Ideal)) (x1 : (⟨S512, .i32⟩ : BufTy).Contents (Elt Ideal))
    (x3 : (⟨S512x512, .f32⟩ : BufTy).Contents (Elt Ideal)) (b : Fin 512) (j : Fin 110) :
    val_main_v37 (F := Ideal) x0 x1 x3 (ix2 b j)
      = ∑ k' : Fin 110, Cert.Spec.shifted (Cert.Spec.masked (maskRow x1 b j) (scoreRow x0 x3 b j)) k' := by
  rw [val_main_v37_apply, val_main_cst_4_apply]
  show Ideal.ofBits .f32 0x00000000#32 + ∑ k' : Fin 110, val_main_v36 (F := Ideal) x0 x1 x3 (idx_main_v37 (ix2 b j) k') = _
  rw [Ideal.ofBits_zero_f32, zero_add]
  refine Finset.sum_congr rfl fun k' _ => ?_
  have e : idx_main_v37 (ix2 b j) k' = ix3 b j k' :=
    funext fun a => Fin.ext (by match a with | ⟨0, _⟩ => rfl | ⟨1, _⟩ => rfl | ⟨2, _⟩ => rfl)
  rw [e, shifted_apply]

/-- The reference's result at `(b, j, k)`: the quotient of the exponential by its row's sum inside the window, zero
    outside — the scalar formula's entry. -/
theorem ref_apply (x0 : (⟨S512x110x512, .f32⟩ : BufTy).Contents (Elt Ideal)) (x1 : (⟨S512, .i32⟩ : BufTy).Contents (Elt Ideal))
    (x3 : (⟨S512x512, .f32⟩ : BufTy).Contents (Elt Ideal)) (b : Fin 512) (j k : Fin 110) :
    Cert.ReferenceIdeal.Read.val_main_v41 (F := Ideal) x0 x1 x3 (ValueIdx.ix3 b j k)
      = Cert.Spec.entry (fun r d => x0 (ValueIdx.ix3 b r d)) (x1 (ValueIdx.ix1 b)) (fun d e => x3 (ValueIdx.ix2 d e)) j k := by
  have e : idx_main_v38 (idx_main_v39 (ix3 b j k)) = ix2 b j :=
    funext fun a => Fin.ext (by match a with | ⟨0, _⟩ => rfl | ⟨1, _⟩ => rfl)
  rw [val_main_v41_apply, mask_apply, val_main_v40_apply, shifted_apply, val_main_v39_apply, val_main_v38_apply, e,
    rowSum_apply, val_main_call1_v1_apply, val_main_call1_v0_apply, val_main_cst_5_apply]
  rfl

/-- So the reference's result is the scalar formula's array: every index is given by its three coordinates. -/
theorem ref_eq (x0 : (⟨S512x110x512, .f32⟩ : BufTy).Contents (Elt Ideal)) (x1 : (⟨S512, .i32⟩ : BufTy).Contents (Elt Ideal))
    (x3 : (⟨S512x512, .f32⟩ : BufTy).Contents (Elt Ideal)) :
    Cert.ReferenceIdeal.Read.val_main_v41 (F := Ideal) x0 x1 x3 = Cert.Spec.G x0 x1 x3 := by
  funext i
  rw [ValueIdx.eq_ix3 i]
  exact (ref_apply x0 x1 x3 (i 0) (i 1) (i 2)).trans (Cert.Spec.G_ix3 x0 x1 x3 (i 0) (i 1) (i 2)).symm

end Cert.RefValue

end
-- ==== Proof.lean ====
/-
  The proof of `Cert.Claim`: a windowed-attention kernel against its array-level reference, on the extended reals.

  Both programs compute, for each of 512 batch rows, the 110 × 110 matrix whose entry `(j, k)` is the softmax over
  `k` of the scores `∑ d, x j d * (∑ e, x k e * W d e)` restricted to the window `j - 10 ≤ k ≤ min (j + 10) (l - 1)`,
  `j < l` (`l` the row's length), with zeros outside the window. The kernel works on sixteen batch rows per grid
  step, flattens them for the first product and rounds its operands to a narrower float format; the reference
  contracts whole arrays. On the extended reals a change of format is the identity and sums and maxima do not
  depend on their order, so both results are the ONE array `Cert.Spec.G` of the arguments:

  * Proof/Spec.lean states `G`, entry by entry;
  * Proof/RefValue.lean reads the reference's composed term at an index and finds `G`;
  * Proof/BlockLayout.lean, Proof/BlockProducts.lean and Proof/BlockPayload.lean read one grid step's arithmetic at an
    index and find `G`'s entry for the batch row under it;
  * Proof/BlockArray.lean shows that grid point `t` writes back block `t` of `G` and that the 32 blocks cover the array.

  The three frames are the generated ones (the reference's is its run with the result dropped), the idealization
  rewrote nothing, and the value claim sets the two runs side by side. No step needs the inputs to be finite.
-/
import proofs.«118188_j4037269259072_1_alg».proof.Defs
import proofs.«118188_j4037269259072_1_alg».proof.Proof.Gen.Kernel
import proofs.«118188_j4037269259072_1_alg».proof.Proof.Gen.Kernel.Frame
import proofs.«118188_j4037269259072_1_alg».proof.Proof.Gen.KernelIdeal
import proofs.«118188_j4037269259072_1_alg».proof.Proof.Gen.KernelIdeal.Frame
import proofs.«118188_j4037269259072_1_alg».proof.Proof.Gen.KernelIdeal.Value
import proofs.«118188_j4037269259072_1_alg».proof.Proof.Gen.ReferenceIdeal
import proofs.«118188_j4037269259072_1_alg».proof.Proof.Gen.ReferenceIdeal.Run
import proofs.«118188_j4037269259072_1_alg».proof.Proof.Gen.ReferenceIdeal.Read
import proofs.«118188_j4037269259072_1_alg».proof.Proof.Gen.Pre_finite_inputs
import proofs.«118188_j4037269259072_1_alg».proof.Proof.Spec
import proofs.«118188_j4037269259072_1_alg».proof.Proof.BlockArray
import proofs.«118188_j4037269259072_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `G` of the arguments:
    the kernel's by its blocks, the reference's by reading its composed term at an index. -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3)),
    Cert.KernelArr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.RefValue.ref_eq, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
